-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x5000 : Shape := ⟨2, ![10000, 5000]⟩
abbrev S10000x5 : Shape := ⟨2, ![10000, 5]⟩
abbrev S5000x5 : Shape := ⟨2, ![5000, 5]⟩
abbrev S_ : Shape := ⟨0, ![]⟩

class Facts : Prop where
  bcast_S_S10000x5000 : S_.BroadcastsInDim S10000x5000 (![] : Fin 0 → Fin S10000x5000.rank)
  reducesTo_S10000x5000_S_d0_1 : S10000x5000.ReducesTo [0, 1] S_
  h_S_ : 0 < S_.numel
  bcast_S_S10000x5 : S_.BroadcastsInDim S10000x5 (![] : Fin 0 → Fin S10000x5.rank)
  reducesTo_S10000x5_S_d0_1 : S10000x5.ReducesTo [0, 1] S_
  bcast_S_S5000x5 : S_.BroadcastsInDim S5000x5 (![] : Fin 0 → Fin S5000x5.rank)
  reducesTo_S5000x5_S_d0_1 : S5000x5.ReducesTo [0, 1] S_

variable [Facts]

def fn {F : FTy → Type} [FloatOps F] (main_arg0 : FVec F S10000x5000 .f32) (main_arg1 : FVec F S10000x5 .f32) (main_arg2 : FVec F S5000x5 .f32) : IVec S_ 1 :=
  let main_v0 : FVec F S10000x5000 .f32 := Host.absf main_arg0
  let main_cst : FVec F S_ .f32 := constant S_ .f32 0x7F800000#32
  let main_v1 : FVec F S10000x5000 .f32 := broadcastInDim S10000x5000 ![] bcast_S_S10000x5000 main_cst
  let main_v2 : IVec S10000x5000 1 := cmpf .olt main_v0 main_v1
  let main_c : IVec S_ 1 := constantI S_ 1 1#1
  let main_v3 : IVec S_ 1 := (fun x v => Host.reduce IntOp.andi x v reducesTo_S10000x5000_S_d0_1 h_S_) main_v2 main_c
  let main_v4 : FVec F S10000x5 .f32 := Host.absf main_arg1
  let main_cst_0 : FVec F S_ .f32 := constant S_ .f32 0x7F800000#32
  let main_v5 : FVec F S10000x5 .f32 := broadcastInDim S10000x5 ![] bcast_S_S10000x5 main_cst_0
  let main_v6 : IVec S10000x5 1 := cmpf .olt main_v4 main_v5
  let main_c_1 : IVec S_ 1 := constantI S_ 1 1#1
  let main_v7 : IVec S_ 1 := (fun x v => Host.reduce IntOp.andi x v reducesTo_S10000x5_S_d0_1 h_S_) main_v6 main_c_1
  let main_v8 : IVec S_ 1 := andi main_v3 main_v7
  let main_v9 : FVec F S5000x5 .f32 := Host.absf main_arg2
  let main_cst_2 : FVec F S_ .f32 := constant S_ .f32 0x7F800000#32
  let main_v10 : FVec F S5000x5 .f32 := broadcastInDim S5000x5 ![] bcast_S_S5000x5 main_cst_2
  let main_v11 : IVec S5000x5 1 := cmpf .olt main_v9 main_v10
  let main_c_3 : IVec S_ 1 := constantI S_ 1 1#1
  let main_v12 : IVec S_ 1 := (fun x v => Host.reduce IntOp.andi x v reducesTo_S5000x5_S_d0_1 h_S_) main_v11 main_c_3
  let main_v13 : IVec S_ 1 := andi main_v8 main_v12
  main_v13
-- ==== Kernel.lean ====
abbrev S10000x5000 : Shape := ⟨2, ![10000, 5000]⟩
abbrev S10000x5 : Shape := ⟨2, ![10000, 5]⟩
abbrev S5000x5 : Shape := ⟨2, ![5000, 5]⟩
abbrev S1x1 : Shape := ⟨2, ![1, 1]⟩
abbrev S200x5000 : Shape := ⟨2, ![200, 5000]⟩
abbrev S200x5 : Shape := ⟨2, ![200, 5]⟩
abbrev S5x5000 : Shape := ⟨2, ![5, 5000]⟩
abbrev S200 : Shape := ⟨1, ![200]⟩
abbrev S200x1 : Shape := ⟨2, ![200, 1]⟩
abbrev S1 : Shape := ⟨1, ![1]⟩
abbrev S_ : Shape := ⟨0, ![]⟩
abbrev S10000 : Shape := ⟨1, ![10000]⟩
abbrev S5000 : Shape := ⟨1, ![5000]⟩

abbrev nBuf : Space → Nat
  | .hbm => 23
  | .vmem => 7
  | .smem => 0
  | _ => 0

abbrev bufTy : (tb : Table) → Fin (tcTables nBuf tb) → BufTy
  | .hbm, ⟨0, _⟩ => ⟨S10000x5000, .f32⟩
  | .hbm, ⟨1, _⟩ => ⟨S10000x5, .f32⟩
  | .hbm, ⟨2, _⟩ => ⟨S5000x5, .f32⟩
  | .hbm, ⟨3, _⟩ => ⟨S1x1, .f32⟩
  | .hbm, ⟨4, _⟩ => ⟨S_, .f32⟩
  | .hbm, ⟨5, _⟩ => ⟨S10000x5, .f32⟩
  | .hbm, ⟨6, _⟩ => ⟨S_, .f32⟩
  | .hbm, ⟨7, _⟩ => ⟨S10000, .f32⟩
  | .hbm, ⟨8, _⟩ => ⟨S10000, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S5000x5, .f32⟩
  | .hbm, ⟨14, _⟩ => ⟨S_, .f32⟩
  | .hbm, ⟨15, _⟩ => ⟨S5000, .f32⟩
  | .hbm, ⟨16, _⟩ => ⟨S5000, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S200x5000, .f32⟩
  | .local _ .vmem, ⟨1, _⟩ => ⟨S200x5000, .f32⟩
  | .local _ .vmem, ⟨2, _⟩ => ⟨S200x5, .f32⟩
  | .local _ .vmem, ⟨3, _⟩ => ⟨S200x5, .f32⟩
  | .local _ .vmem, ⟨4, _⟩ => ⟨S5000x5, .f32⟩
  | .local _ .vmem, ⟨5, _⟩ => ⟨S1x1, .f32⟩
  | .local _ .vmem, ⟨6, _⟩ => ⟨S1x1, .f32⟩
  | _, _ => ⟨S10000x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v27 : BitVec 1 := Scalar.cmpi .eq arg0 c49_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5000x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S200x5_S200x5_0_0 : ∀ a, (![0, 0] : Fin 2 → Nat) a + S200x5.size a ≤ S200x5.size a
  h_S200x5 : 0 < S200x5.numel
  bitsLt_bf16_f32 : FTy.bits .bf16 < FTy.bits .f32
  inb_S5000x5_S5000x5_0_0 : ∀ a, (![0, 0] : Fin 2 → Nat) a + S5000x5.size a ≤ S5000x5.size a
  h_S5000x5 : 0 < S5000x5.numel
  transposes_S5000x5_p1_0_S5x5000 : S5000x5.Transposes [1, 0] S5x5000
  inb_S200x5000_S200x5000_0_0 : ∀ a, (![0, 0] : Fin 2 → Nat) a + S200x5000.size a ≤ S200x5000.size a
  h_S200x5000 : 0 < S200x5000.numel
  natLt_1_32 : 1 < 32
  reduces_S200x5000_S200 : S200x5000.Reduces [1] S200
  shapeCasts_S200_S200x1 : S200.ShapeCasts S200x1
  reduces_S200x1_S1 : S200x1.Reduces [0] S1
  shapeCasts_S1_S1x1 : S1.ShapeCasts S1x1
  shapeCasts_S1x1_S_ : S1x1.ShapeCasts S_
  reducesTo_S10000x5_S10000_d1 : S10000x5.ReducesTo [1] S10000
  h_S_ : 0 < S_.numel
  reducesTo_S10000_S_d0 : S10000.ReducesTo [0] S_
  reducesTo_S5000x5_S5000_d1 : S5000x5.ReducesTo [1] S5000
  reducesTo_S5000_S_d0 : S5000.ReducesTo [0] S_
  dot_S200x5_S5x5000_S200x5000_1_0_0_1_n_n_wf : DotDims.WF S200x5 S5x5000 S200x5000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x5000.size a ≤ S10000x5000.size a
  hwx0_0 : ∀ i : grid0.Coords, EltTy.bits .f32 = 32 ∨ (Rect.block (s := S10000x5000) S200x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x5.size a ≤ S10000x5.size a
  hwx0_1 : ∀ i : grid0.Coords, EltTy.bits .f32 = 32 ∨ (Rect.block (s := S10000x5) S200x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5000x5.size a ≤ S5000x5.size a
  hwx0_2 : ∀ i : grid0.Coords, EltTy.bits .f32 = 32 ∨ (Rect.block (s := S5000x5) S5000x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S200x5_S5x5000_S200x5000_1_0_0_1_n_n : DotDims S200x5 S5x5000 S200x5000 where
  lhsContracting := [1]
  rhsContracting := [0]
  lhsNonContracting := [0]
  rhsNonContracting := [1]
  lhsBatch := []
  rhsBatch := []
  wf := dot_S200x5_S5x5000_S200x5000_1_0_0_1_n_n_wf

abbrev win0_0 : Pipeline.Window sig grid0 :=
  Pipeline.Window.ofSpec (Memref.whole main_arg0) S200x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S10000x5000 : Shape := ⟨2, ![10000, 5000]⟩
abbrev S10000x5 : Shape := ⟨2, ![10000, 5]⟩
abbrev S5000x5 : Shape := ⟨2, ![5000, 5]⟩
abbrev S_ : Shape := ⟨0, ![]⟩
abbrev S10000 : Shape := ⟨1, ![10000]⟩
abbrev S5000 : Shape := ⟨1, ![5000]⟩

abbrev nBuf : Space → Nat
  | .hbm => 39
  | .vmem => 0
  | .smem => 0
  | _ => 0

abbrev bufTy : (tb : Table) → Fin (tcTables nBuf tb) → BufTy
  | .hbm, ⟨0, _⟩ => ⟨S10000x5000, .f32⟩
  | .hbm, ⟨1, _⟩ => ⟨S10000x5, .f32⟩
  | .hbm, ⟨2, _⟩ => ⟨S5000x5, .f32⟩
  | .hbm, ⟨3, _⟩ => ⟨S_, .f32⟩
  | .hbm, ⟨4, _⟩ => ⟨S10000x5000, .f32⟩
  | .hbm, ⟨5, _⟩ => ⟨S10000x5000, .i1⟩
  | .hbm, ⟨6, _⟩ => ⟨S10000x5000, .f32⟩
  | .hbm, ⟨7, _⟩ => ⟨S10000x5000, .f32⟩
  | .hbm, ⟨8, _⟩ => ⟨S10000x5000, .f32⟩
  | .hbm, ⟨9, _⟩ => ⟨S10000x5000, .f32⟩
  | .hbm, ⟨10, _⟩ => ⟨S_, .f32⟩
  | .hbm, ⟨11, _⟩ => ⟨S10000x5000, .f32⟩
  | .hbm, ⟨12, _⟩ => ⟨S10000x5000, .f32⟩
  | .hbm, ⟨13, _⟩ => ⟨S_, .f32⟩
  | .hbm, ⟨14, _⟩ => ⟨S10000x5000, .f32⟩
  | .hbm, ⟨15, _⟩ => ⟨S10000x5000, .f32⟩
  | .hbm, ⟨16, _⟩ => ⟨S10000x5000, .f32⟩
  | .hbm, ⟨17, _⟩ => ⟨S10000x5000, .f32⟩
  | .hbm, ⟨18, _⟩ => ⟨S10000x5000, .f32⟩
  | .hbm, ⟨19, _⟩ => ⟨S_, .f32⟩
  | .hbm, ⟨20, _⟩ => ⟨S_, .f32⟩
  | .hbm, ⟨21, _⟩ => ⟨S10000x5, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S5000x5, .f32⟩
  | .hbm, ⟨30, _⟩ => ⟨S_, .f32⟩
  | .hbm, ⟨31, _⟩ => ⟨S5000, .f32⟩
  | .hbm, ⟨32, _⟩ => ⟨S5000, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S10000x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]

class Facts₀ : Prop where
  bcast_S_S10000x5000 : S_.BroadcastsInDim S10000x5000 (![] : Fin 0 → Fin S10000x5000.rank)
  reducesTo_S10000x5000_S_d0_1 : S10000x5000.ReducesTo [0, 1] S_
  h_S_ : 0 < S_.numel
  reducesTo_S10000x5_S10000_d1 : S10000x5.ReducesTo [1] S10000
  reducesTo_S10000_S_d0 : S10000.ReducesTo [0] S_
  reducesTo_S5000x5_S5000_d1 : S5000x5.ReducesTo [1] S5000
  reducesTo_S5000_S_d0 : S5000.ReducesTo [0] S_
  dot_S10000x5_S5000x5_S10000x5000_1_1_0_0_n_n_wf : DotDims.WF S10000x5 S5000x5 S10000x5000 [1] [1] [0] [0] [] []

variable [Facts₀]

def dot_S10000x5_S5000x5_S10000x5000_1_1_0_0_n_n : DotDims S10000x5 S5000x5 S10000x5000 where
  lhsContracting := [1]
  rhsContracting := [1]
  lhsNonContracting := [0]
  rhsNonContracting := [0]
  lhsBatch := []
  rhsBatch := []
  wf := dot_S10000x5_S5000x5_S10000x5000_1_1_0_0_n_n_wf

class Facts : Prop extends Facts₀ where

variable [Facts]
-- ==== Proof.Pieces.lean ====
/-
  What one grid point leaves behind, read as values.  The body keeps a running total in a one-entry scratch
  buffer: at the first point it clears the buffer and then adds the point's partial sum to it; at every later point
  it adds the partial sum to what the previous point left; at the last point it also copies the total into the
  one-entry output block.  Each of these stored values is the same pure function `k0_pay2` of the point's three
  input blocks and of the scratch entry it read: the stores cover the whole one-entry buffers, so reading the
  written pieces back returns the stored value itself.
-/
import proofs.«170890_j74835510165861_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The origin of a two-axis block. -/
theorem hz : (![0, 0] : Fin 2 → Nat) = fun _ => 0 := funext fun a => by fin_cases a <;> rfl

/-- A middle point (neither first nor last): the scratch entry ends at the partial sum added to what it held. -/
theorem scratch_mid (c : Dev nD) (i : grid0.Coords) (arg1 : Memref sig .tc .vmem S200x5000 .f32) (harg1 : arg1.IsWhole) (arg2 : Memref sig .tc .vmem S200x5 .f32) (harg2 : arg2.IsWhole) (arg3 : Memref sig .tc .vmem S5000x5 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S200x5000 .f32) (x1 : Vec F S200x5 .f32) (x2 : Vec F S5000x5 .f32) (xs0 : Vec F S1x1 .f32) :
    sout0_B_0 c i arg1 harg1 arg2 harg2 arg3 harg3 arg4 harg4 arg5 harg5 hc0 hc1 x0 x1 x2 xs0 = k0_pay2 x1 x2 x0 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  rw [View.canon_unit_zero hz]
  simp only [View.readAt_eq_ld, harg1.read_unread, harg2.read_unread, harg3.read_unread, harg5.read_unread, View.ld_unit_zero (S := S200x5000) hz, View.ld_unit_zero (S := S200x5) hz, View.ld_unit_zero (S := S5000x5) hz, View.ld_unit_zero (S := S1x1) hz]

/-- The last point: the scratch entry ends the same way, -/
theorem scratch_last (c : Dev nD) (i : grid0.Coords) (arg1 : Memref sig .tc .vmem S200x5000 .f32) (harg1 : arg1.IsWhole) (arg2 : Memref sig .tc .vmem S200x5 .f32) (harg2 : arg2.IsWhole) (arg3 : Memref sig .tc .vmem S5000x5 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S200x5000 .f32) (x1 : Vec F S200x5 .f32) (x2 : Vec F S5000x5 .f32) (xs0 : Vec F S1x1 .f32) :
    sout0_C_0 c i arg1 harg1 arg2 harg2 arg3 harg3 arg4 harg4 arg5 harg5 hc0 hc1 x0 x1 x2 xs0 = k0_pay2 x1 x2 x0 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread, View.ld_unit_zero (S := S200x5000) hz, View.ld_unit_zero (S := S200x5) hz, View.ld_unit_zero (S := S5000x5) hz, View.ld_unit_zero (S := S1x1) hz]

/-- and the output block receives a copy of it (the value just stored into the scratch entry, read back). -/
theorem out_last (c : Dev nD) (i : grid0.Coords) (arg1 : Memref sig .tc .vmem S200x5000 .f32) (harg1 : arg1.IsWhole) (arg2 : Memref sig .tc .vmem S200x5 .f32) (harg2 : arg2.IsWhole) (arg3 : Memref sig .tc .vmem S5000x5 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S200x5000 .f32) (x1 : Vec F S200x5 .f32) (x2 : Vec F S5000x5 .f32) (xs0 : Vec F S1x1 .f32) :
    out0_C_3 c i arg1 harg1 arg2 harg2 arg3 harg3 arg4 harg4 arg5 harg5 hc0 hc1 x0 x1 x2 xs0 = k0_pay2 x1 x2 x0 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg5.read_unread, View.ld_unit_zero (S := S200x5000) hz, View.ld_unit_zero (S := S200x5) hz, View.ld_unit_zero (S := S5000x5) hz, View.ld_unit_zero (S := S1x1) hz]

/-- The first point: the scratch entry is cleared to the zero word, read back, and the partial sum added to it. -/
theorem scratch_first (c : Dev nD) (i : grid0.Coords) (arg1 : Memref sig .tc .vmem S200x5000 .f32) (harg1 : arg1.IsWhole) (arg2 : Memref sig .tc .vmem S200x5 .f32) (harg2 : arg2.IsWhole) (arg3 : Memref sig .tc .vmem S5000x5 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S200x5000 .f32) (x1 : Vec F S200x5 .f32) (x2 : Vec F S5000x5 .f32) :
    sout0_A_0 c i arg1 harg1 arg2 harg2 arg3 harg3 arg4 harg4 arg5 harg5 hc0 hc1 x0 x1 x2 = k0_pay2 x1 x2 x0 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg5.read_unread, View.ld_unit_zero (S := S200x5000) hz, View.ld_unit_zero (S := S200x5) hz, View.ld_unit_zero (S := S5000x5) hz, View.ld_unit_zero (S := S1x1) hz]

end Cert.KernelIdeal.Acc

end
-- ==== Proof.Spec.lean ====
/-
  The quantity both programs compute, over the extended reals.

  For a ratings matrix A (10000 × 5000), user factors U (10000 × 5) and item factors W (5000 × 5) the prediction error
  is the sum, over every entry (r, q), of

      (A[r,q] − σ(Σ_k U[r,k]·W[q,k]))² · [A[r,q] ≠ 0],

  σ the logistic function.  `cell` is one such term, `rowTerm` a row's total, `total` the sum over all rows.  The
  kernel visits the rows in 50 tiles of 200: row r is row p of tile t when r = 200·t + p, and since addition of
  extended reals is commutative and associative the sum over rows is the sum over tiles of the sums over a tile's rows
  (`total_eq_tiles`) — no finiteness is needed for that.
-/
import Idealize.ShloMosaic.PureOps.Ideal
import Idealize.ShloMosaic.Lib.ValueIdx

noncomputable section

namespace Cert.Spec

open Idealize.ShloMosaic Idealize.ShloMosaic.ValueIdx

/-- The indicator of a nonzero entry, as a float: one where `a` differs from the value of the zero word, else zero. -/
def mask (a : EReal) : EReal := (((Ideal.cmp .une a (Ideal.ofBits .f32 0x00000000#32)).toNat : ℝ) : EReal)

/-- One entry's term: the squared difference between the entry `a` and the logistic of the score `s`, kept only where
    the entry is nonzero. -/
def cell (a s : EReal) : EReal := (a - Ideal.logistic s) * (a - Ideal.logistic s) * mask a

/-- A one-bit word widened to 32 bits and read as a signed integer is the bit itself: the two ways the programs turn
    the comparison's bit into a float agree. -/
theorem toInt_setWidth_bit (b : BitVec 1) : (((b.setWidth 32).toInt : ℝ) : EReal) = ((b.toNat : ℝ) : EReal) := by
  have h : (b.setWidth 32).toInt = (b.toNat : ℤ) := by
    have hb : b.toNat < 2 := b.isLt
    rw [BitVec.toInt_eq_toNat_cond, BitVec.toNat_setWidth]
    have : b.toNat % 2 ^ 32 = b.toNat := Nat.mod_eq_of_lt (by omega)
    rw [this, if_pos (by omega)]
  rw [h]; push_cast; rfl

variable (A : (⟨2, ![10000, 5000]⟩ : Shape).Idx → EReal) (U : (⟨2, ![10000, 5]⟩ : Shape).Idx → EReal)
  (W : (⟨2, ![5000, 5]⟩ : Shape).Idx → EReal)

/-- The score of user row `r` against item row `q`: the inner product of their factor rows. -/
def score (r : Fin 10000) (q : Fin 5000) : EReal := ∑ k : Fin 5, U (ix2 r k) * W (ix2 q k)

/-- Row `r`'s total error. -/
def rowTerm (r : Fin 10000) : EReal := ∑ q : Fin 5000, cell (A (ix2 r q)) (score U W r q)

/-- The prediction error: every row's total. -/
def total : EReal := ∑ r : Fin 10000, rowTerm A U W r

/-- Row `p` of tile `t` is row 200·t + p of the matrix. -/
def rowOf (t : Fin 50) (p : Fin 200) : Fin 10000 := ⟨200 * t.val + p.val, by have := t.isLt; have := p.isLt; omega⟩

/-- A tile's total: its 200 rows' totals. -/
def tileTerm (t : Fin 50) : EReal := ∑ p : Fin 200, rowTerm A U W (rowOf t p)

/-- The rows are exactly the 50 tiles' rows, each once: the sum over rows is the sum over tiles. -/
theorem total_eq_tiles : total A U W = ∑ t : Fin 50, tileTerm A U W t := by
  unfold total tileTerm
  rw [← Fintype.sum_prod_type (f := fun tp : Fin 50 × Fin 200 => rowTerm A U W (rowOf tp.1 tp.2))]
  refine (Fintype.sum_equiv (finProdFinEquiv : Fin 50 × Fin 200 ≃ Fin 10000) _ _ fun tp => ?_).symm
  refine congrArg (rowTerm A U W) (Fin.ext ?_)
  show 200 * tp.1.val + tp.2.val = tp.2.val + 200 * tp.1.val
  omega

end Cert.Spec

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Payload.lean ====
/-
  The body's arithmetic at one grid point, read at the single entry of its result over the extended reals.

  With the point's blocks A' (200 × 5000 of the matrix), U' (200 × 5 of the user factors) and W (all 5000 × 5 item
  factors) and the scratch entry `acc` it read, the stored value is

      acc + Σ_{p<200} Σ_{q<5000} (A'[p,q] − σ(Σ_k U'[p,k]·W[q,k]))² · [A'[p,q] ≠ 0].

  The product U'·Wᵀ is a matrix-unit product into zeros of the factors narrowed to bf16 — a change of format, which
  is the identity on extended reals — with W transposed first; the mask is the comparison's bit widened and converted;
  the two lane reductions start from the zero word and are plain sums.
-/
import proofs.«170890_j74835510165861_1_alg».proof.Proof.Gen.KernelIdeal.Skeleton
import proofs.«170890_j74835510165861_1_alg».proof.Proof.Spec
import proofs.«170890_j74835510165861_1_alg».proof.Proof.LibMatmulNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx

namespace Cert.KernelIdeal.Acc

open Cert.KernelIdeal Cert.KernelIdeal.Gen

/-- The printed dimension record of the body's product is the plain 200×5 by 5×5000 one. -/
theorem dot_plain : dot_S200x5_S5x5000_S200x5000_1_0_0_1_n_n = DotDims.plain 200 5 5000 := rfl

/-- The score block at (p, q): row p of the user block against row q of the item factors. -/
theorem scores_apply (x1 : Vec Ideal S200x5 .f32) (x2 : Vec Ideal S5000x5 .f32) (p : Fin 200) (q : Fin 5000) :
    matmul dot_S200x5_S5x5000_S200x5000_1_0_0_1_n_n none (truncf .bf16 x1 bitsLt_bf16_f32)
        (transpose S5x5000 [1, 0] (truncf .bf16 x2 bitsLt_bf16_f32) transposes_S5000x5_p1_0_S5x5000)
        (constant (F := Ideal) S200x5000 .f32 0x00000000#32) (ix2 p q)
      = ∑ k : Fin 5, x1 (ix2 p k) * x2 (ix2 q k) := by
  refine (Cert.MatmulNN.matmul_zero_apply _ dot_plain none _ _ p q).trans ?_
  refine Finset.sum_congr rfl fun k _ => ?_
  rw [transpose_ix2_apply]
  rfl

/-- The masked squared error block at (p, q). -/
theorem term_apply (x1 : Vec Ideal S200x5 .f32) (x2 : Vec Ideal S5000x5 .f32) (x0 : Vec Ideal S200x5000 .f32)
    (S : FVec Ideal S200x5000 .f32) (hS : ∀ p q, S (ix2 p q) = ∑ k : Fin 5, x1 (ix2 p k) * x2 (ix2 q k))
    (p : Fin 200) (q : Fin 5000) :
    mulf (mulf (subf x0 (logistic S)) (subf x0 (logistic S)))
        (sitofp .f32 (extui 32 (cmpf .one x0 (broadcast S200x5000 (Scalar.ofBits (F := Ideal) .f32 0x00000000#32))) natLt_1_32)) (ix2 p q)
      = Cert.Spec.cell (x0 (ix2 p q)) (∑ k : Fin 5, x1 (ix2 p k) * x2 (ix2 q k)) := by
  rw [← hS p q]
  show (x0 (ix2 p q) - Ideal.logistic (S (ix2 p q))) * (x0 (ix2 p q) - Ideal.logistic (S (ix2 p q)))
      * ((((Ideal.cmp .one (x0 (ix2 p q)) (Ideal.ofBits .f32 0x00000000#32)).setWidth 32).toInt : ℝ) : EReal) = _
  rw [Cert.Spec.toInt_setWidth_bit]
  rfl

/-- The stored value at its one entry: what the scratch held plus the point's double sum. -/
theorem pay2_apply (x1 : Vec Ideal S200x5 .f32) (x2 : Vec Ideal S5000x5 .f32) (x0 : Vec Ideal S200x5000 .f32)
    (xs : Vec Ideal S1x1 .f32) (y : S1x1.Idx) :
    k0_pay2 (F := Ideal) x1 x2 x0 xs y
      = xs y + ∑ p : Fin 200, ∑ q : Fin 5000, Cert.Spec.cell (x0 (ix2 p q)) (∑ k : Fin 5, x1 (ix2 p k) * x2 (ix2 q k)) := by
  have e0 : y 0 = (0 : Fin 1) := Fin.ext (by have := idx2_lt0 y; show (y 0).val = 0; omega)
  have e1 : y 1 = (0 : Fin 1) := Fin.ext (by have := idx2_lt1 y; show (y 1).val = 0; omega)
  obtain rfl : y = ix2 (0 : Fin 1) (0 : Fin 1) := (eq_ix2 y).trans (by rw [e0, e1]; rfl)
  unfold k0_pay2
  dsimp only
  rw [shapeCast_self, addf_apply]
  refine congrArg (xs _ + ·) ?_
  rw [shapeCast_a_1a_apply]
  -- the sum over the 200 rows of the column of row sums
  refine (Ideal.multiReduction_add_single _ _ reduces_S200x1_S1 _ _ _).trans ?_
  refine Finset.sum_congr rfl fun p _ => ?_
  -- the column [200] → [200, 1]: entry (p, 0) is entry p
  refine (shapeCast_apply _ shapeCasts_S200_S200x1 _ (ix1 p) (by
    rw [Shape.rowMajor_val_one, Shape.rowMajor_val_two]
    show p.val = p.val * 1 + 0
    omega)).trans ?_
  -- a row's sum over its 5000 columns
  refine (Ideal.multiReduction_add_single _ _ reduces_S200x5000_S200 _ _ _).trans ?_
  refine Finset.sum_congr rfl fun q _ => ?_
  have e : reduces_S200x5000_S200.lift (ix1 p) q = ix2 p q :=
    funext fun a => Fin.ext (by match a with | ⟨0, _⟩ => rfl | ⟨1, _⟩ => rfl)
  rw [e]
  exact term_apply x1 x2 x0 _ (scores_apply x1 x2) p q

end Cert.KernelIdeal.Acc

end
-- ==== Proof.Blocks.lean ====
/-
  The windows' blocks in matrix coordinates.  At grid point t the matrix window holds rows 200·t … 200·t+199 and all
  5000 columns, the user-factor window the same 200 rows, and the item-factor window the whole 5000 × 5 array: entry
  (p, q) of a block is entry (200·t + p, q) of its array.
-/
import proofs.«170890_j74835510165861_1_alg».proof.Proof.Gen.KernelIdeal.Frame
import Idealize.ShloMosaic.Lib.Pipeline.Value
import Idealize.ShloMosaic.Lib.Tactic
import proofs.«170890_j74835510165861_1_alg».proof.Proof.Spec
import Idealize.ShloMosaic.Lib.ValueIdx
set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable {F : FTy → Type} [FloatOps F]
variable (m : (ℓ : Loc nD τ sig) → Buf (Elt F) ℓ)

/-- A grid point as one of the 50 tiles. -/
def tileOf (t : Fin cfg0.N) : Fin 50 := ⟨t.val, lt_of_lt_of_eq t.isLt (show cfg0.N = 50 from N_0)⟩

/-- The matrix window's block index at point t is (t, 0); -/
theorem index_matrix : ∀ t : Fin cfg0.N, win0_0.index t 0 = t.val ∧ win0_0.index t 1 = 0 :=
  (by decide +kernel : ∀ t : Fin grid0.N, win0_0.index t 0 = t.val ∧ win0_0.index t 1 = 0)
/-- the user-factor window's likewise; -/
theorem index_users : ∀ t : Fin cfg0.N, win0_1.index t 0 = t.val ∧ win0_1.index t 1 = 0 :=
  (by decide +kernel : ∀ t : Fin grid0.N, win0_1.index t 0 = t.val ∧ win0_1.index t 1 = 0)
/-- the item-factor window's never moves. -/
theorem index_items : ∀ t : Fin cfg0.N, win0_2.index t 0 = 0 ∧ win0_2.index t 1 = 0 :=
  (by decide +kernel : ∀ t : Fin grid0.N, win0_2.index t 0 = 0 ∧ win0_2.index t 1 = 0)

/-- The matrix block at point t, entry (p, q): the matrix at (200·t + p, q). -/
theorem matrix_block (c : Dev nD) (t : Fin cfg0.N) (p : Fin 200) (q : Fin 5000) :
    (iblk m c 0 t : Vec F S200x5000 .f32) (ix2 p q)
      = m ((c : Thread nD τ).loc main_arg0) (ix2 (Cert.Spec.rowOf (tileOf t) p) q) := by
  unfold iblk
  rw [View.read_apply]
  show V m c main_arg0 _ = m (c.tc.loc main_arg0) _
  unfold V
  congr 1
  funext a
  apply Fin.ext
  match a with
  | ⟨0, _⟩ => show win0_0.index t 0 * 200 + 1 * p.val = 200 * t.val + p.val; rw [(index_matrix t).1]; omega
  | ⟨1, _⟩ => show win0_0.index t 1 * 5000 + 1 * q.val = q.val; rw [(index_matrix t).2]; omega

/-- The user-factor block at point t, entry (p, k): the user factors at (200·t + p, k). -/
theorem users_block (c : Dev nD) (t : Fin cfg0.N) (p : Fin 200) (k : Fin 5) :
    (iblk m c 1 t : Vec F S200x5 .f32) (ix2 p k)
      = m ((c : Thread nD τ).loc main_arg1) (ix2 (Cert.Spec.rowOf (tileOf t) p) k) := by
  unfold iblk
  rw [View.read_apply]
  show V m c main_arg1 _ = m (c.tc.loc main_arg1) _
  unfold V
  congr 1
  funext a
  apply Fin.ext
  match a with
  | ⟨0, _⟩ => show win0_1.index t 0 * 200 + 1 * p.val = 200 * t.val + p.val; rw [(index_users t).1]; omega
  | ⟨1, _⟩ => show win0_1.index t 1 * 5 + 1 * k.val = k.val; rw [(index_users t).2]; omega

/-- The item-factor block at any point: the whole array. -/
theorem items_block (c : Dev nD) (t : Fin cfg0.N) (q : Fin 5000) (k : Fin 5) :
    (iblk m c 2 t : Vec F S5000x5 .f32) (ix2 q k) = m ((c : Thread nD τ).loc main_arg2) (ix2 q k) := by
  unfold iblk
  rw [View.read_apply]
  show V m c main_arg2 _ = m (c.tc.loc main_arg2) _
  unfold V
  congr 1
  funext a
  apply Fin.ext
  match a with
  | ⟨0, _⟩ => show win0_2.index t 0 * 5000 + 1 * q.val = q.val; rw [(index_items t).1]; omega
  | ⟨1, _⟩ => show win0_2.index t 1 * 5 + 1 * k.val = k.val; rw [(index_items t).2]; omega

end Cert.KernelIdeal.Acc

end
-- ==== Proof.Accum.lean ====
/-
  The running total.  Over the extended reals, after grid point n the one-entry scratch buffer holds the value of the
  zero word plus the totals of tiles 0 … n: the first point clears it and adds tile 0's total, every later point adds
  its own tile's total to what the point before left (induction on the point).  At the last point the output block
  receives the same value.
-/
import proofs.«170890_j74835510165861_1_alg».proof.Proof.Gen.KernelIdeal.Frame
import Idealize.ShloMosaic.Lib.Pipeline.Value
import Idealize.ShloMosaic.Lib.Tactic
import proofs.«170890_j74835510165861_1_alg».proof.Proof.Pieces
import proofs.«170890_j74835510165861_1_alg».proof.Proof.Payload
import proofs.«170890_j74835510165861_1_alg».proof.Proof.Blocks
set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable (m : (ℓ : Loc nD τ sig) → Buf (Elt Ideal) ℓ)

/-- The three argument arrays on core `c`, as arrays of extended reals. -/
abbrev argA (c : Dev nD) : (⟨2, ![10000, 5000]⟩ : Shape).Idx → EReal := m ((c : Thread nD τ).loc main_arg0)
abbrev argU (c : Dev nD) : (⟨2, ![10000, 5]⟩ : Shape).Idx → EReal := m ((c : Thread nD τ).loc main_arg1)
abbrev argW (c : Dev nD) : (⟨2, ![5000, 5]⟩ : Shape).Idx → EReal := m ((c : Thread nD τ).loc main_arg2)

/-- One point's stored value in matrix coordinates: what the scratch entry held plus the point's tile total. -/
theorem point_sum (c : Dev nD) (t : Fin cfg0.N) (xs : Vec Ideal S1x1 .f32) (y : S1x1.Idx) :
    k0_pay2 (F := Ideal) (iblk m c 1 t) (iblk m c 2 t) (iblk m c 0 t) xs y
      = xs y + Cert.Spec.tileTerm (argA m c) (argU m c) (argW m c) (tileOf t) := by
  refine (pay2_apply (iblk m c 1 t) (iblk m c 2 t) (iblk m c 0 t) xs y).trans ?_
  refine congrArg (xs y + ·) ?_
  unfold Cert.Spec.tileTerm Cert.Spec.rowTerm Cert.Spec.score
  refine Finset.sum_congr rfl fun p _ => Finset.sum_congr rfl fun q _ => ?_
  rw [matrix_block m c t p q]
  refine congrArg _ (Finset.sum_congr rfl fun k _ => ?_)
  rw [users_block m c t p k, items_block m c t q k]

/-- The value the first point clears the scratch entry to: the zero word's. -/
theorem cleared (y : S1x1.Idx) : k0_pay1 (F := Ideal) y = Ideal.ofBits .f32 0x00000000#32 := by
  unfold k0_pay1
  rw [shapeCast_self]
  rfl

/-- The total after point `n`: the zero word's value plus tiles 0 … n. -/
def running (c : Dev nD) (n : ℕ) (h : n < cfg0.N) : EReal :=
  Ideal.ofBits .f32 0x00000000#32
    + ∑ t : Fin (n + 1), Cert.Spec.tileTerm (argA m c) (argU m c) (argW m c)
        ⟨t.val, by have := t.isLt; have : cfg0.N = 50 := N_0; omega⟩

/-- What the scratch entry holds after point `n` is the running total. -/
theorem scratch_eq (c : Dev nD) : ∀ (n : ℕ) (h : n < cfg0.N) (y : S1x1.Idx), (outsAt0 m c n h).2 y = running m c n h
  | 0, h, y => by
    rw [outsAt0_A m c ⟨0, h⟩ rfl (by dsimp only; omega)]
    dsimp only
    rw [scratch_first, point_sum, cleared]
    unfold running
    rw [Fin.sum_univ_one]
    rfl
  | n + 1, h, y => by
    have hN : cfg0.N = 50 := N_0
    have h0 : ¬(⟨n + 1, h⟩ : Fin cfg0.N).val % 50 = 0 := by dsimp only; omega
    have step : ∀ xs : Vec Ideal S1x1 .f32, (∀ y, xs y = running m c n (Nat.lt_of_succ_lt h)) →
        k0_pay2 (F := Ideal) (iblk m c 1 ⟨n + 1, h⟩) (iblk m c 2 ⟨n + 1, h⟩) (iblk m c 0 ⟨n + 1, h⟩) xs y
          = running m c (n + 1) h := by
      intro xs hxs
      rw [point_sum, hxs]
      unfold running
      rw [Fin.sum_univ_castSucc (n := n + 1), add_assoc]
      rfl
    by_cases h1 : (⟨n + 1, h⟩ : Fin cfg0.N).val % 50 = 49
    · rw [outsAt0_C m c ⟨n + 1, h⟩ h0 h1]
      dsimp only
      rw [scratch_last]
      exact step _ (scratch_eq c n _)
    · rw [outsAt0_B m c ⟨n + 1, h⟩ h0 h1]
      dsimp only
      rw [scratch_mid]
      exact step _ (scratch_eq c n _)

/-- At the last point the output block receives the total of all 50 tiles. -/
theorem out_eq (c : Dev nD) (h : 49 < cfg0.N) (y : S1x1.Idx) : (outsAt0 m c 49 h).1 y = running m c 49 h := by
  have h0 : ¬(⟨49, h⟩ : Fin cfg0.N).val % 50 = 0 := by dsimp only; omega
  have h1 : (⟨49, h⟩ : Fin cfg0.N).val % 50 = 49 := by dsimp only
  have e := scratch_eq m c 49 h y
  rw [outsAt0_C m c ⟨49, h⟩ h0 h1] at e ⊢
  dsimp only at e ⊢
  rw [scratch_last] at e
  rw [out_last]
  exact e

/-- The final total is the whole prediction error (plus the zero word's value). -/
theorem running_last (c : Dev nD) (h : 49 < cfg0.N) :
    running m c 49 h = Ideal.ofBits .f32 0x00000000#32 + Cert.Spec.total (argA m c) (argU m c) (argW m c) := by
  unfold running
  rw [Cert.Spec.total_eq_tiles]

end Cert.KernelIdeal.Acc

end
-- ==== Proof.Final.lean ====
/-
  The kernel's run, read.  The one-entry output array is written back once, after the last grid point, and that
  write covers it, so it ends holding the total of all 50 tiles: the value of the zero word plus the prediction error.
  The host lines after the region reshape it to a scalar and add the two regularisation terms — 0.05 times the sum of
  the rows' Euclidean norms, of the user factors and of the item factors — computed from the argument arrays, which
  the region leaves unchanged.
-/
import proofs.«170890_j74835510165861_1_alg».proof.Proof.Gen.KernelIdeal.Frame
import Idealize.ShloMosaic.Lib.Pipeline.Value
import Idealize.ShloMosaic.Lib.Tactic
import proofs.«170890_j74835510165861_1_alg».proof.Proof.Accum
import Idealize.ShloMosaic.Lib.StableHlo.Run
import Idealize.ShloMosaic.Lib.Pipeline.FrameSuffix
set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Idealize.ShloMosaic.StableHlo

variable (m : (ℓ : Loc nD τ sig) → Buf (Elt Ideal) ℓ) (ρ : Dev nD → PrngReg)

/-- The last grid point. -/
abbrev lastPt : Fin cfg0.N := ⟨49, by rw [show cfg0.N = 50 from N_0]; omega⟩

/-- The prediction error as the kernel accumulates it: from the zero word's value. -/
def errVal (c : Dev nD) : EReal :=
  Ideal.ofBits .f32 0x00000000#32 + Cert.Spec.total (argA m c) (argU m c) (argW m c)

/-- The output array's final contents: its one entry at the prediction error. -/
def outArr (c : Dev nD) : Buf (Elt Ideal) ((c : Thread nD τ).loc main_v0) := fun _ => errVal m c

/-- The one write-back, after the last point, writes the total. -/
theorem flushed_eq (c : Dev nD) (t : Fin cfg0.N) (hf : (cfg0.win 3).flush t = true) :
    (dats m 0 c).flushed 3 t = ((cfg0.win 3).blk t).view.read (Elt Ideal) (outArr m c) := by
  have hN : cfg0.N = 50 := N_0
  have h49 : t.val = 49 := by have := (flush0_3 t).mp hf; have := t.isLt; omega
  obtain rfl : t = lastPt := Fin.ext h49
  funext y
  rw [View.read_apply]
  show (dats m 0 c).after 3 lastPt _ = errVal m c
  rw [after0_3]
  exact (out_eq m c lastPt.isLt _).trans (running_last m c _)

/-- That block is the whole array, so the array ends at the total. -/
theorem final_out (c : Dev nD) : (dats m 0 c).arrAt 3 cfg0.N = outArr m c :=
  (dats m 0 c).arrAt_eq_of_cover 3 (outArr m c) (flushed_eq m c) fun i =>
    ⟨lastPt, (flush0_3 lastPt).mpr rfl, by
      show i ∈ ((View.whole main_v0).slice (win0_3.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_3.index lastPt 0 * win0_3.size 0 ≤ (i 0 : Nat) ∧ (i 0 : Nat) < win0_3.index lastPt 0 * win0_3.size 0 + win0_3.xsize (grid0.coords lastPt) 0
                  rw [show win0_3.index lastPt 0 * win0_3.size 0 = 0 from by decide +kernel, show win0_3.xsize (grid0.coords lastPt) 0 = 1 from by decide +kernel]; omega
      | ⟨1, _⟩ => show win0_3.index lastPt 1 * win0_3.size 1 ≤ (i 1 : Nat) ∧ (i 1 : Nat) < win0_3.index lastPt 1 * win0_3.size 1 + win0_3.xsize (grid0.coords lastPt) 1
                  rw [show win0_3.index lastPt 1 * win0_3.size 1 = 0 from by decide +kernel, show win0_3.xsize (grid0.coords lastPt) 1 = 1 from by decide +kernel]; omega⟩

/-- The scalar the host lines after the region compute from the prediction error `pe` and the two factor arrays:
    pe + 0.05·Σ_r ‖U[r,·]‖ + 0.05·Σ_q ‖W[q,·]‖, in the program's own operations and order. -/
def withPenalties (pe : FVec Ideal S_ .f32) (Uf : FVec Ideal S10000x5 .f32) (Wf : FVec Ideal S5000x5 .f32) : FVec Ideal S_ .f32 :=
  addf (addf pe
    (mulf (constant (F := Ideal) S_ .f32 0x3D4CCCCD#32)
      (Host.reduceAdd (F := Ideal) (Host.sqrt (F := Ideal) (Host.reduceAdd (F := Ideal) (mulf Uf Uf)
        (constant (F := Ideal) S_ .f32 0x00000000#32) reducesTo_S10000x5_S10000_d1 h_S_)) (constant (F := Ideal) S_ .f32 0x00000000#32) reducesTo_S10000_S_d0 h_S_)))
    (mulf (constant (F := Ideal) S_ .f32 0x3D4CCCCD#32)
      (Host.reduceAdd (F := Ideal) (Host.sqrt (F := Ideal) (Host.reduceAdd (F := Ideal) (mulf Wf Wf)
        (constant (F := Ideal) S_ .f32 0x00000000#32) reducesTo_S5000x5_S5000_d1 h_S_)) (constant (F := Ideal) S_ .f32 0x00000000#32) reducesTo_S5000_S_d0 h_S_))

/-- The lines after the region, from any contents of the buffers they read. -/
theorem tail_after (Vv : Valuation τ sig (Elt Ideal)) :
    StableHlo.after (List.flatten [hostOps1, hostOps1_1, hostOps1_2, hostOps1_3, hostOps1_4]) Vv (Proc.devRef .tc main_v9)
      = withPenalties (shapeCast S_ (Vv (Proc.devRef .tc main_v0) : FVec Ideal S1x1 .f32) shapeCasts_S1x1_S_)
          (Vv (Proc.devRef .tc main_arg1)) (Vv (Proc.devRef .tc main_arg2)) := by
  simp only [hostOps1, hostOps1_1, hostOps1_2, hostOps1_3, hostOps1_4, List.flatten_cons, List.flatten_nil, List.append_nil,
    List.cons_append, List.nil_append]
  after_results
  rfl

/-- The kernel's result on core `c`: the prediction error with the two penalties. -/
def result (c : Dev nD) : Buf (Elt Ideal) ((c : Thread nD τ).loc main_v9) :=
  withPenalties (fun _ => errVal m c) (m ((c : Thread nD τ).loc main_arg1)) (m ((c : Thread nD τ).loc main_arg2))

/-- What the frame run states for the result buffer is that value. -/
theorem tail_eq (c : Dev nD) :
    Pipeline.afterTail₀ cfgs (dats m) 0 (V0 m) [hostOps1, hostOps1_1, hostOps1_2, hostOps1_3, hostOps1_4] c main_v9 = result m c := by
  unfold Pipeline.afterTail₀
  refine (tail_after _).trans ?_
  have e0 : Pipeline.withArrays (cfgs 0).spec c (V0 m c) (fun w => (dats m 0 c).arrAt w (cfgs 0).N) (Proc.devRef .tc main_v0) = outArr m c :=
    (Pipeline.withArrays_arr spec0 launch0.win.arr_inj c _ _ 3).trans (final_out m c)
  have e1 : Pipeline.withArrays (cfgs 0).spec c (V0 m c) (fun w => (dats m 0 c).arrAt w (cfgs 0).N) (Proc.devRef .tc main_arg1) = m ((c : Thread nD τ).loc main_arg1) :=
    (Pipeline.withArrays_arr spec0 launch0.win.arr_inj c _ _ 1).trans (((dats m 0 c).arrAt_in 1 rfl _).trans ((A_eq m c 1).trans (V_main_arg1 m c)))
  have e2 : Pipeline.withArrays (cfgs 0).spec c (V0 m c) (fun w => (dats m 0 c).arrAt w (cfgs 0).N) (Proc.devRef .tc main_arg2) = m ((c : Thread nD τ).loc main_arg2) :=
    (Pipeline.withArrays_arr spec0 launch0.win.arr_inj c _ _ 2).trans (((dats m 0 c).arrAt_in 2 rfl _).trans ((A_eq m c 2).trans (V_main_arg2 m c)))
  rw [e0, e1, e2]
  rfl

/-- The run, read: the result buffer at the prediction error with penalties, the arguments unchanged. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Acc

end
-- ==== Proof.RefValue.lean ====
/-
  The reference's prediction error, read.  Its entry (r, q) of the masked squared error array is
  (A[r,q] − 1/(1 + exp(−s)))² · [A[r,q] ≠ 0] with s the score Σ_k U[r,k]·W[q,k]: the quotient with the word 1.0 in
  both places is the logistic function of s by that function's definition, and the comparison's bit converted
  unsigned is the indicator.  Its sum over both axes, from the zero word, is the zero word's value plus the total over
  all rows and columns.
-/
import proofs.«170890_j74835510165861_1_alg».proof.Proof.Gen.ReferenceIdeal.Read
import proofs.«170890_j74835510165861_1_alg».proof.Proof.Spec
import Idealize.ShloMosaic.PureOps.IdealRules

noncomputable section

open Idealize.ShloMosaic Idealize.ShloMosaic.ValueIdx

namespace Cert.ReferenceIdeal.RefValue

open Cert.ReferenceIdeal Cert.ReferenceIdeal.Gen Cert.ReferenceIdeal.Read

/-- The word 1.0 denotes one. -/
theorem one_word : Ideal.ofBits .f32 0x3F800000#32 = 1 := IdealRules.sign_bit.ideal_onePat .f32

/-- The masked squared error array at (r, q). -/
theorem entry (x0 : (⟨S10000x5000, .f32⟩ : BufTy).Contents (Elt Ideal)) (x1 : (⟨S10000x5, .f32⟩ : BufTy).Contents (Elt Ideal))
    (x2 : (⟨S5000x5, .f32⟩ : BufTy).Contents (Elt Ideal)) (r : Fin 10000) (q : Fin 5000) :
    val_main_v12 (F := Ideal) x0 x1 x2 (ix2 r q) = Cert.Spec.cell (x0 (ix2 r q)) (Cert.Spec.score x1 x2 r q) := by
  have el : ∀ k : Fin 5, lidx_main_v3 (ix2 r q) k = ix2 r k := fun k =>
    funext fun a => Fin.ext (by match a with | ⟨0, _⟩ => rfl | ⟨1, _⟩ => rfl)
  have er : ∀ k : Fin 5, ridx_main_v3 (ix2 r q) k = ix2 q k := fun k =>
    funext fun a => Fin.ext (by match a with | ⟨0, _⟩ => rfl | ⟨1, _⟩ => rfl)
  have hs : val_main_v3 (F := Ideal) x1 x2 (ix2 r q) = Cert.Spec.score x1 x2 r q := by
    rw [val_main_v3_apply]
    exact Finset.sum_congr rfl fun k _ => by rw [el, er]
  show (x0 (ix2 r q) - Ideal.div (Ideal.ofBits .f32 0x3F800000#32)
          (Ideal.ofBits .f32 0x3F800000#32 + Ideal.exp (-(val_main_v3 (F := Ideal) x1 x2 (ix2 r q)))))
        * (x0 (ix2 r q) - Ideal.div (Ideal.ofBits .f32 0x3F800000#32)
          (Ideal.ofBits .f32 0x3F800000#32 + Ideal.exp (-(val_main_v3 (F := Ideal) x1 x2 (ix2 r q)))))
        * (((Ideal.cmp .une (x0 (ix2 r q)) (Ideal.ofBits .f32 0x00000000#32)).toNat : ℝ) : EReal) = _
  rw [one_word, hs]
  rfl

/-- The reference's prediction error: the zero word's value plus the total. -/
theorem error_eq (x0 : (⟨S10000x5000, .f32⟩ : BufTy).Contents (Elt Ideal)) (x1 : (⟨S10000x5, .f32⟩ : BufTy).Contents (Elt Ideal))
    (x2 : (⟨S5000x5, .f32⟩ : BufTy).Contents (Elt Ideal)) :
    val_main_v13 (F := Ideal) x0 x1 x2 = fun _ => Ideal.ofBits .f32 0x00000000#32 + Cert.Spec.total x0 x1 x2 := by
  funext i
  rw [val_main_v13_apply, sum_idx2]
  refine congrArg (_ + ·) ?_
  unfold Cert.Spec.total Cert.Spec.rowTerm
  exact Finset.sum_congr rfl fun r _ => Finset.sum_congr rfl fun q _ => entry x0 x1 x2 r q

end Cert.ReferenceIdeal.RefValue

end
-- ==== Proof.Bridge.lean ====
/-
  The two programs compute one value.  The kernel's result is the prediction error — the zero word's value plus the
  total over all entries, accumulated tile by tile — with the two penalties added by the host lines after the region;
  the reference's result is its own sum over both axes, the same zero word's value plus the same total, with the same
  two penalties in the same operations and order.
-/
import proofs.«170890_j74835510165861_1_alg».proof.Proof.Final
import proofs.«170890_j74835510165861_1_alg».proof.Proof.RefValue

noncomputable section

open Idealize.ShloMosaic Idealize.ShloMosaic.TcCoe Idealize.SL.Sem

namespace Cert.Bridge

/-- The reference's result term, at arrays of extended reals, is the kernel's value of the same arrays. -/
theorem result_eq (x0 : (⟨Cert.ReferenceIdeal.S10000x5000, .f32⟩ : BufTy).Contents (Elt Ideal))
    (x1 : (⟨Cert.ReferenceIdeal.S10000x5, .f32⟩ : BufTy).Contents (Elt Ideal))
    (x2 : (⟨Cert.ReferenceIdeal.S5000x5, .f32⟩ : BufTy).Contents (Elt Ideal)) :
    Cert.ReferenceIdeal.Read.val_main_v21 (F := Ideal) x0 x1 x2
      = Cert.KernelIdeal.Acc.withPenalties
          (fun _ => Ideal.ofBits .f32 0x00000000#32 + Cert.Spec.total x0 x1 x2) x1 x2 := by
  unfold Cert.ReferenceIdeal.Read.val_main_v21 Cert.ReferenceIdeal.Read.val_main_v20
  rw [Cert.ReferenceIdeal.RefValue.error_eq]
  rfl

end Cert.Bridge

end
-- ==== Proof.lean ====
/-
  A probabilistic matrix factorisation loss, computed two ways, is one value over the extended reals.

  For a ratings matrix A (10000 × 5000), user factors U (10000 × 5) and item factors W (5000 × 5) the loss is

      Σ_{r,q} (A[r,q] − σ(Σ_k U[r,k]·W[q,k]))² · [A[r,q] ≠ 0]  +  0.05·Σ_r ‖U[r,·]‖  +  0.05·Σ_q ‖W[q,·]‖,

  σ the logistic function.  The kernel streams A in 50 tiles of 200 rows: at each grid point it forms the tile's scores
  as a matrix-unit product of the factors narrowed to bf16 (a change of format: the identity on extended reals),
  applies σ, masks and squares, sums the tile's entries by two lane reductions and adds the result to a one-entry
  scratch total, cleared at the first point and copied to the one-entry output after the last; the host then adds the
  two penalties.  The reference computes the scores by one contraction, spells σ as 1/(1 + exp(−s)), and sums the whole
  masked array at once before adding the same penalties.

  Why they agree: σ(s) is 1/(1 + exp(−s)) by definition on every extended real; the ordered and the unordered
  "not equal" are one predicate where there is no NaN, and a one-bit word converted signed after widening or unsigned
  directly is the same 0 or 1; and addition of extended reals is commutative and associative, so the sum over all rows
  is the sum over the tiles of the sums over each tile's rows, accumulated in any grouping.  None of these steps needs
  the inputs to be finite, so the precondition is not opened.  The idealisation rewrote nothing, so the kernel's own
  text read at the extended reals is its idealisation.

  Modules: Spec (the loss as a function of the arrays, and the regrouping into tiles) · Pieces (what a grid point
  stores, as the body's pure payload) · Payload (that payload at its one entry: the carried total plus the tile's
  double sum) · Blocks (a window's block in matrix coordinates) · Accum (the running total by induction on the point) ·
  Final (the output array, the host lines after the region, the kernel's run) · RefValue (the reference's sum) ·
  Bridge (the two results are one term) · LibMatmulNN (a matrix product into zeros at an entry).
-/
import proofs.«170890_j74835510165861_1_alg».proof.Defs
import proofs.«170890_j74835510165861_1_alg».proof.Proof.Gen.Kernel
import proofs.«170890_j74835510165861_1_alg».proof.Proof.Gen.Kernel.Frame
import proofs.«170890_j74835510165861_1_alg».proof.Proof.Gen.KernelIdeal
import proofs.«170890_j74835510165861_1_alg».proof.Proof.Gen.KernelIdeal.Frame
import proofs.«170890_j74835510165861_1_alg».proof.Proof.Gen.ReferenceIdeal
import proofs.«170890_j74835510165861_1_alg».proof.Proof.Gen.ReferenceIdeal.Run
import proofs.«170890_j74835510165861_1_alg».proof.Proof.Gen.ReferenceIdeal.Read
import proofs.«170890_j74835510165861_1_alg».proof.Proof.Gen.Pre_finite_inputs
import proofs.«170890_j74835510165861_1_alg».proof.Proof.Bridge
import Idealize.ShloMosaic.Adequacy
import Idealize.ShloMosaic.Init

noncomputable section

namespace Cert.Proof

open Idealize.ShloMosaic Idealize.SL.Sem

/-- The kernel as printed runs to completion without a fault and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was idealised. -/
theorem preserves : Cert.preserves_Kernel_KernelIdeal := trivial

/-- From memories that agree on the three arrays both programs end with the loss of those arrays in their result. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2]
  exact Cert.Bridge.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
